-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x128 : Shape := ⟨3, ![512, 64, 128]⟩
abbrev S512x128x128 : Shape := ⟨3, ![512, 128, 128]⟩
abbrev S512x192x128 : Shape := ⟨3, ![512, 192, 128]⟩
abbrev S512x256x128 : Shape := ⟨3, ![512, 256, 128]⟩
abbrev S512x320x128 : Shape := ⟨3, ![512, 320, 128]⟩
abbrev S512x384x128 : Shape := ⟨3, ![512, 384, 128]⟩
abbrev S512x448x128 : Shape := ⟨3, ![512, 448, 128]⟩
abbrev S512x512x128 : Shape := ⟨3, ![512, 512, 128]⟩
abbrev S_ : Shape := ⟨0, ![]⟩

class Facts : Prop where
  bcast_S_S512x64x128 : S_.BroadcastsInDim S512x64x128 (![] : Fin 0 → Fin S512x64x128.rank)
  reducesTo_S512x64x128_S_d0_1_2 : S512x64x128.ReducesTo [0, 1, 2] S_
  h_S_ : 0 < S_.numel
  bcast_S_S512x128x128 : S_.BroadcastsInDim S512x128x128 (![] : Fin 0 → Fin S512x128x128.rank)
  reducesTo_S512x128x128_S_d0_1_2 : S512x128x128.ReducesTo [0, 1, 2] S_
  bcast_S_S512x192x128 : S_.BroadcastsInDim S512x192x128 (![] : Fin 0 → Fin S512x192x128.rank)
  reducesTo_S512x192x128_S_d0_1_2 : S512x192x128.ReducesTo [0, 1, 2] S_
  bcast_S_S512x256x128 : S_.BroadcastsInDim S512x256x128 (![] : Fin 0 → Fin S512x256x128.rank)
  reducesTo_S512x256x128_S_d0_1_2 : S512x256x128.ReducesTo [0, 1, 2] S_
  bcast_S_S512x320x128 : S_.BroadcastsInDim S512x320x128 (![] : Fin 0 → Fin S512x320x128.rank)
  reducesTo_S512x320x128_S_d0_1_2 : S512x320x128.ReducesTo [0, 1, 2] S_
  bcast_S_S512x384x128 : S_.BroadcastsInDim S512x384x128 (![] : Fin 0 → Fin S512x384x128.rank)
  reducesTo_S512x384x128_S_d0_1_2 : S512x384x128.ReducesTo [0, 1, 2] S_
  bcast_S_S512x448x128 : S_.BroadcastsInDim S512x448x128 (![] : Fin 0 → Fin S512x448x128.rank)
  reducesTo_S512x448x128_S_d0_1_2 : S512x448x128.ReducesTo [0, 1, 2] S_
  bcast_S_S512x512x128 : S_.BroadcastsInDim S512x512x128 (![] : Fin 0 → Fin S512x512x128.rank)
  reducesTo_S512x512x128_S_d0_1_2 : S512x512x128.ReducesTo [0, 1, 2] S_

variable [Facts]

def fn_part2 {F : FTy → Type} [FloatOps F] (main_arg7 : FVec F S512x512x128 .f32) (main_v33 : IVec S_ 1) : IVec S_ 1 :=
  let main_v34 : FVec F S512x512x128 .f32 := Host.absf main_arg7
  let main_cst_12 : FVec F S_ .f32 := constant S_ .f32 0x7F800000#32
  let main_v35 : FVec F S512x512x128 .f32 := broadcastInDim S512x512x128 ![] bcast_S_S512x512x128 main_cst_12
  let main_v36 : IVec S512x512x128 1 := cmpf .olt main_v34 main_v35
  let main_c_13 : IVec S_ 1 := constantI S_ 1 1#1
  let main_v37 : IVec S_ 1 := (fun x v => Host.reduce IntOp.andi x v reducesTo_S512x512x128_S_d0_1_2 h_S_) main_v36 main_c_13
  let main_v38 : IVec S_ 1 := andi main_v33 main_v37
  main_v38

def fn_part1 {F : FTy → Type} [FloatOps F] (main_arg4 : FVec F S512x320x128 .f32) (main_arg5 : FVec F S512x384x128 .f32) (main_arg6 : FVec F S512x448x128 .f32) (main_arg7 : FVec F S512x512x128 .f32) (main_v13 : IVec S_ 1) (main_v16 : IVec S512x256x128 1) : IVec S_ 1 :=
  let main_c_5 : IVec S_ 1 := constantI S_ 1 1#1
  let main_v17 : IVec S_ 1 := (fun x v => Host.reduce IntOp.andi x v reducesTo_S512x256x128_S_d0_1_2 h_S_) main_v16 main_c_5
  let main_v18 : IVec S_ 1 := andi main_v13 main_v17
  let main_v19 : FVec F S512x320x128 .f32 := Host.absf main_arg4
  let main_cst_6 : FVec F S_ .f32 := constant S_ .f32 0x7F800000#32
  let main_v20 : FVec F S512x320x128 .f32 := broadcastInDim S512x320x128 ![] bcast_S_S512x320x128 main_cst_6
  let main_v21 : IVec S512x320x128 1 := cmpf .olt main_v19 main_v20
  let main_c_7 : IVec S_ 1 := constantI S_ 1 1#1
  let main_v22 : IVec S_ 1 := (fun x v => Host.reduce IntOp.andi x v reducesTo_S512x320x128_S_d0_1_2 h_S_) main_v21 main_c_7
  let main_v23 : IVec S_ 1 := andi main_v18 main_v22
  let main_v24 : FVec F S512x384x128 .f32 := Host.absf main_arg5
  let main_cst_8 : FVec F S_ .f32 := constant S_ .f32 0x7F800000#32
  let main_v25 : FVec F S512x384x128 .f32 := broadcastInDim S512x384x128 ![] bcast_S_S512x384x128 main_cst_8
  let main_v26 : IVec S512x384x128 1 := cmpf .olt main_v24 main_v25
  let main_c_9 : IVec S_ 1 := constantI S_ 1 1#1
  let main_v27 : IVec S_ 1 := (fun x v => Host.reduce IntOp.andi x v reducesTo_S512x384x128_S_d0_1_2 h_S_) main_v26 main_c_9
  let main_v28 : IVec S_ 1 := andi main_v23 main_v27
  let main_v29 : FVec F S512x448x128 .f32 := Host.absf main_arg6
  let main_cst_10 : FVec F S_ .f32 := constant S_ .f32 0x7F800000#32
  let main_v30 : FVec F S512x448x128 .f32 := broadcastInDim S512x448x128 ![] bcast_S_S512x448x128 main_cst_10
  let main_v31 : IVec S512x448x128 1 := cmpf .olt main_v29 main_v30
  let main_c_11 : IVec S_ 1 := constantI S_ 1 1#1
  let main_v32 : IVec S_ 1 := (fun x v => Host.reduce IntOp.andi x v reducesTo_S512x448x128_S_d0_1_2 h_S_) main_v31 main_c_11
  let main_v33 : IVec S_ 1 := andi main_v28 main_v32
  fn_part2 (F := F) main_arg7 main_v33

def fn {F : FTy → Type} [FloatOps F] (main_arg0 : FVec F S512x64x128 .f32) (main_arg1 : FVec F S512x128x128 .f32) (main_arg2 : FVec F S512x192x128 .f32) (main_arg3 : FVec F S512x256x128 .f32) (main_arg4 : FVec F S512x320x128 .f32) (main_arg5 : FVec F S512x384x128 .f32) (main_arg6 : FVec F S512x448x128 .f32) (main_arg7 : FVec F S512x512x128 .f32) : IVec S_ 1 :=
  let main_v0 : FVec F S512x64x128 .f32 := Host.absf main_arg0
  let main_cst : FVec F S_ .f32 := constant S_ .f32 0x7F800000#32
  let main_v1 : FVec F S512x64x128 .f32 := broadcastInDim S512x64x128 ![] bcast_S_S512x64x128 main_cst
  let main_v2 : IVec S512x64x128 1 := cmpf .olt main_v0 main_v1
  let main_c : IVec S_ 1 := constantI S_ 1 1#1
  let main_v3 : IVec S_ 1 := (fun x v => Host.reduce IntOp.andi x v reducesTo_S512x64x128_S_d0_1_2 h_S_) main_v2 main_c
  let main_v4 : FVec F S512x128x128 .f32 := Host.absf main_arg1
  let main_cst_0 : FVec F S_ .f32 := constant S_ .f32 0x7F800000#32
  let main_v5 : FVec F S512x128x128 .f32 := broadcastInDim S512x128x128 ![] bcast_S_S512x128x128 main_cst_0
  let main_v6 : IVec S512x128x128 1 := cmpf .olt main_v4 main_v5
  let main_c_1 : IVec S_ 1 := constantI S_ 1 1#1
  let main_v7 : IVec S_ 1 := (fun x v => Host.reduce IntOp.andi x v reducesTo_S512x128x128_S_d0_1_2 h_S_) main_v6 main_c_1
  let main_v8 : IVec S_ 1 := andi main_v3 main_v7
  let main_v9 : FVec F S512x192x128 .f32 := Host.absf main_arg2
  let main_cst_2 : FVec F S_ .f32 := constant S_ .f32 0x7F800000#32
  let main_v10 : FVec F S512x192x128 .f32 := broadcastInDim S512x192x128 ![] bcast_S_S512x192x128 main_cst_2
  let main_v11 : IVec S512x192x128 1 := cmpf .olt main_v9 main_v10
  let main_c_3 : IVec S_ 1 := constantI S_ 1 1#1
  let main_v12 : IVec S_ 1 := (fun x v => Host.reduce IntOp.andi x v reducesTo_S512x192x128_S_d0_1_2 h_S_) main_v11 main_c_3
  let main_v13 : IVec S_ 1 := andi main_v8 main_v12
  let main_v14 : FVec F S512x256x128 .f32 := Host.absf main_arg3
  let main_cst_4 : FVec F S_ .f32 := constant S_ .f32 0x7F800000#32
  let main_v15 : FVec F S512x256x128 .f32 := broadcastInDim S512x256x128 ![] bcast_S_S512x256x128 main_cst_4
  let main_v16 : IVec S512x256x128 1 := cmpf .olt main_v14 main_v15
  fn_part1 (F := F) main_arg4 main_arg5 main_arg6 main_arg7 main_v13 main_v16
-- ==== Kernel.lean ====
abbrev S512x64x128 : Shape := ⟨3, ![512, 64, 128]⟩
abbrev S512x128x128 : Shape := ⟨3, ![512, 128, 128]⟩
abbrev S512x192x128 : Shape := ⟨3, ![512, 192, 128]⟩
abbrev S512x256x128 : Shape := ⟨3, ![512, 256, 128]⟩
abbrev S512x320x128 : Shape := ⟨3, ![512, 320, 128]⟩
abbrev S512x384x128 : Shape := ⟨3, ![512, 384, 128]⟩
abbrev S512x448x128 : Shape := ⟨3, ![512, 448, 128]⟩
abbrev S512x512x128 : Shape := ⟨3, ![512, 512, 128]⟩
abbrev S512x1024 : Shape := ⟨2, ![512, 1024]⟩
abbrev S8x64x128 : Shape := ⟨3, ![8, 64, 128]⟩
abbrev S8x128x128 : Shape := ⟨3, ![8, 128, 128]⟩
abbrev S8x192x128 : Shape := ⟨3, ![8, 192, 128]⟩
abbrev S8x256x128 : Shape := ⟨3, ![8, 256, 128]⟩
abbrev S8x320x128 : Shape := ⟨3, ![8, 320, 128]⟩
abbrev S8x384x128 : Shape := ⟨3, ![8, 384, 128]⟩
abbrev S8x448x128 : Shape := ⟨3, ![8, 448, 128]⟩
abbrev S8x512x128 : Shape := ⟨3, ![8, 512, 128]⟩
abbrev S8x1024 : Shape := ⟨2, ![8, 1024]⟩
abbrev S8x128 : Shape := ⟨2, ![8, 128]⟩

abbrev nBuf : Space → Nat
  | .hbm => 9
  | .vmem => 18
  | .smem => 0
  | _ => 0

abbrev bufTy : (tb : Table) → Fin (tcTables nBuf tb) → BufTy
  | .hbm, ⟨0, _⟩ => ⟨S512x64x128, .f32⟩
  | .hbm, ⟨1, _⟩ => ⟨S512x128x128, .f32⟩
  | .hbm, ⟨2, _⟩ => ⟨S512x192x128, .f32⟩
  | .hbm, ⟨3, _⟩ => ⟨S512x256x128, .f32⟩
  | .hbm, ⟨4, _⟩ => ⟨S512x320x128, .f32⟩
  | .hbm, ⟨5, _⟩ => ⟨S512x384x128, .f32⟩
  | .hbm, ⟨6, _⟩ => ⟨S512x448x128, .f32⟩
  | .hbm, ⟨7, _⟩ => ⟨S512x512x128, .f32⟩
  | .hbm, ⟨8, _⟩ => ⟨S512x1024, .f32⟩
  | .local _ .vmem, ⟨0, _⟩ => ⟨S8x64x128, .f32⟩
  | .local _ .vmem, ⟨1, _⟩ => ⟨S8x64x128, .f32⟩
  | .local _ .vmem, ⟨2, _⟩ => ⟨S8x128x128, .f32⟩
  | .local _ .vmem, ⟨3, _⟩ => ⟨S8x128x128, .f32⟩
  | .local _ .vmem, ⟨4, _⟩ => ⟨S8x192x128, .f32⟩
  | .local _ .vmem, ⟨5, _⟩ => ⟨S8x192x128, .f32⟩
  | .local _ .vmem, ⟨6, _⟩ => ⟨S8x256x128, .f32⟩
  | .local _ .vmem, ⟨7, _⟩ => ⟨S8x256x128, .f32⟩
  | .local _ .vmem, ⟨8, _⟩ => ⟨S8x320x128, .f32⟩
  | .local _ .vmem, ⟨9, _⟩ => ⟨S8x320x128, .f32⟩
  | .local _ .vmem, ⟨10, _⟩ => ⟨S8x384x128, .f32⟩
  | .local _ .vmem, ⟨11, _⟩ => ⟨S8x384x128, .f32⟩
  | .local _ .vmem, ⟨12, _⟩ => ⟨S8x448x128, .f32⟩
  | .local _ .vmem, ⟨13, _⟩ => ⟨S8x448x128, .f32⟩
  | .local _ .vmem, ⟨14, _⟩ => ⟨S8x512x128, .f32⟩
  | .local _ .vmem, ⟨15, _⟩ => ⟨S8x512x128, .f32⟩
  | .local _ .vmem, ⟨16, _⟩ => ⟨S8x1024, .f32⟩
  | .local _ .vmem, ⟨17, _⟩ => ⟨S8x1024, .f32⟩
  | _, _ => ⟨S512x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x320x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x448x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S8x64x128_S8x64x128_0_0_0 : ∀ a, (![0, 0, 0] : Fin 3 → Nat) a + S8x64x128.size a ≤ S8x64x128.size a
  h_S8x64x128 : 0 < S8x64x128.numel
  reduces_S8x64x128_S8x128 : S8x64x128.Reduces [1] S8x128
  inb_S8x1024_S8x128_0_0 : ∀ a, (![0, 0] : Fin 2 → Nat) a + S8x128.size a ≤ S8x1024.size a
  h_S8x128 : 0 < S8x128.numel
  inb_S8x128x128_S8x128x128_0_0_0 : ∀ a, (![0, 0, 0] : Fin 3 → Nat) a + S8x128x128.size a ≤ S8x128x128.size a
  h_S8x128x128 : 0 < S8x128x128.numel
  reduces_S8x128x128_S8x128 : S8x128x128.Reduces [1] S8x128
  inb_S8x1024_S8x128_0_128 : ∀ a, (![0, 128] : Fin 2 → Nat) a + S8x128.size a ≤ S8x1024.size a
  inb_S8x192x128_S8x192x128_0_0_0 : ∀ a, (![0, 0, 0] : Fin 3 → Nat) a + S8x192x128.size a ≤ S8x192x128.size a
  h_S8x192x128 : 0 < S8x192x128.numel
  reduces_S8x192x128_S8x128 : S8x192x128.Reduces [1] S8x128
  inb_S8x1024_S8x128_0_256 : ∀ a, (![0, 256] : Fin 2 → Nat) a + S8x128.size a ≤ S8x1024.size a
  inb_S8x256x128_S8x256x128_0_0_0 : ∀ a, (![0, 0, 0] : Fin 3 → Nat) a + S8x256x128.size a ≤ S8x256x128.size a
  h_S8x256x128 : 0 < S8x256x128.numel
  reduces_S8x256x128_S8x128 : S8x256x128.Reduces [1] S8x128
  inb_S8x1024_S8x128_0_384 : ∀ a, (![0, 384] : Fin 2 → Nat) a + S8x128.size a ≤ S8x1024.size a
  inb_S8x320x128_S8x320x128_0_0_0 : ∀ a, (![0, 0, 0] : Fin 3 → Nat) a + S8x320x128.size a ≤ S8x320x128.size a
  h_S8x320x128 : 0 < S8x320x128.numel
  reduces_S8x320x128_S8x128 : S8x320x128.Reduces [1] S8x128
  inb_S8x1024_S8x128_0_512 : ∀ a, (![0, 512] : Fin 2 → Nat) a + S8x128.size a ≤ S8x1024.size a
  inb_S8x384x128_S8x384x128_0_0_0 : ∀ a, (![0, 0, 0] : Fin 3 → Nat) a + S8x384x128.size a ≤ S8x384x128.size a
  h_S8x384x128 : 0 < S8x384x128.numel
  reduces_S8x384x128_S8x128 : S8x384x128.Reduces [1] S8x128
  inb_S8x1024_S8x128_0_640 : ∀ a, (![0, 640] : Fin 2 → Nat) a + S8x128.size a ≤ S8x1024.size a
  inb_S8x448x128_S8x448x128_0_0_0 : ∀ a, (![0, 0, 0] : Fin 3 → Nat) a + S8x448x128.size a ≤ S8x448x128.size a
  h_S8x448x128 : 0 < S8x448x128.numel
  reduces_S8x448x128_S8x128 : S8x448x128.Reduces [1] S8x128
  inb_S8x1024_S8x128_0_768 : ∀ a, (![0, 768] : Fin 2 → Nat) a + S8x128.size a ≤ S8x1024.size a
  inb_S8x512x128_S8x512x128_0_0_0 : ∀ a, (![0, 0, 0] : Fin 3 → Nat) a + S8x512x128.size a ≤ S8x512x128.size a
  h_S8x512x128 : 0 < S8x512x128.numel
  reduces_S8x512x128_S8x128 : S8x512x128.Reduces [1] S8x128
  inb_S8x1024_S8x128_0_896 : ∀ a, (![0, 896] : Fin 2 → Nat) a + S8x128.size a ≤ S8x1024.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x128.size a ≤ S512x64x128.size a
  hwx0_0 : ∀ i : grid0.Coords, EltTy.bits .f32 = 32 ∨ (Rect.block (s := S512x64x128) S8x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x128.size a ≤ S512x128x128.size a
  hwx0_1 : ∀ i : grid0.Coords, EltTy.bits .f32 = 32 ∨ (Rect.block (s := S512x128x128) S8x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x192x128.size a ≤ S512x192x128.size a
  hwx0_2 : ∀ i : grid0.Coords, EltTy.bits .f32 = 32 ∨ (Rect.block (s := S512x192x128) S8x192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x128.size a ≤ S512x256x128.size a
  hwx0_3 : ∀ i : grid0.Coords, EltTy.bits .f32 = 32 ∨ (Rect.block (s := S512x256x128) S8x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x320x128.size a ≤ S512x320x128.size a
  hwx0_4 : ∀ i : grid0.Coords, EltTy.bits .f32 = 32 ∨ (Rect.block (s := S512x320x128) S8x320x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x384x128.size a ≤ S512x384x128.size a
  hwx0_5 : ∀ i : grid0.Coords, EltTy.bits .f32 = 32 ∨ (Rect.block (s := S512x384x128) S8x384x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x448x128.size a ≤ S512x448x128.size a
  hwx0_6 : ∀ i : grid0.Coords, EltTy.bits .f32 = 32 ∨ (Rect.block (s := S512x448x128) S8x448x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x512x128.size a ≤ S512x512x128.size a
  hwx0_7 : ∀ i : grid0.Coords, EltTy.bits .f32 = 32 ∨ (Rect.block (s := S512x512x128) S8x512x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x1024.size a ≤ S512x1024.size a
  hwx0_8 : ∀ i : grid0.Coords, EltTy.bits .f32 = 32 ∨ (Rect.block (s := S512x1024) S8x1024.size (cc0_transform_8 i) (hinb0_8 i)).WholeWords (EltTy.packing .f32)

variable [Facts₀]

abbrev win0_0 : Pipeline.Window sig grid0 :=
  Pipeline.Window.ofSpec (Memref.whole main_arg0) S8x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x320x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x384x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x448x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x512x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S8x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x64x128 : Shape := ⟨3, ![512, 64, 128]⟩
abbrev S512x128x128 : Shape := ⟨3, ![512, 128, 128]⟩
abbrev S512x192x128 : Shape := ⟨3, ![512, 192, 128]⟩
abbrev S512x256x128 : Shape := ⟨3, ![512, 256, 128]⟩
abbrev S512x320x128 : Shape := ⟨3, ![512, 320, 128]⟩
abbrev S512x384x128 : Shape := ⟨3, ![512, 384, 128]⟩
abbrev S512x448x128 : Shape := ⟨3, ![512, 448, 128]⟩
abbrev S512x512x128 : Shape := ⟨3, ![512, 512, 128]⟩
abbrev S_ : Shape := ⟨0, ![]⟩
abbrev S512x128 : Shape := ⟨2, ![512, 128]⟩
abbrev S512x1024 : Shape := ⟨2, ![512, 1024]⟩

abbrev nBuf : Space → Nat
  | .hbm => 25
  | .vmem => 0
  | .smem => 0
  | _ => 0

abbrev bufTy : (tb : Table) → Fin (tcTables nBuf tb) → BufTy
  | .hbm, ⟨0, _⟩ => ⟨S512x64x128, .f32⟩
  | .hbm, ⟨1, _⟩ => ⟨S512x128x128, .f32⟩
  | .hbm, ⟨2, _⟩ => ⟨S512x192x128, .f32⟩
  | .hbm, ⟨3, _⟩ => ⟨S512x256x128, .f32⟩
  | .hbm, ⟨4, _⟩ => ⟨S512x320x128, .f32⟩
  | .hbm, ⟨5, _⟩ => ⟨S512x384x128, .f32⟩
  | .hbm, ⟨6, _⟩ => ⟨S512x448x128, .f32⟩
  | .hbm, ⟨7, _⟩ => ⟨S512x512x128, .f32⟩
  | .hbm, ⟨8, _⟩ => ⟨S_, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S_, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x1024, .f32⟩
  | _, _ => ⟨S512x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_cst_3 : Ref sig .tc := ⟨.hbm, 16, rfl⟩
abbrev main_v4 : Ref sig .tc := ⟨.hbm, 17, rfl⟩
abbrev main_cst_4 : Ref sig .tc := ⟨.hbm, 18, rfl⟩
abbrev main_v5 : Ref sig .tc := ⟨.hbm, 19, rfl⟩
abbrev main_cst_5 : Ref sig .tc := ⟨.hbm, 20, rfl⟩
abbrev main_v6 : Ref sig .tc := ⟨.hbm, 21, rfl⟩
abbrev main_cst_6 : Ref sig .tc := ⟨.hbm, 22, rfl⟩
abbrev main_v7 : Ref sig .tc := ⟨.hbm, 23, rfl⟩
abbrev main_v8 : Ref sig .tc := ⟨.hbm, 24, rfl⟩

abbrev nD : Nat := 1
abbrev τ : Topo := Topo.v7x

variable {F : FTy → Type} [FloatOps F]

class Facts₀ : Prop where
  reducesTo_S512x64x128_S512x128_d1 : S512x64x128.ReducesTo [1] S512x128
  h_S_ : 0 < S_.numel
  reducesTo_S512x128x128_S512x128_d1 : S512x128x128.ReducesTo [1] S512x128
  reducesTo_S512x192x128_S512x128_d1 : S512x192x128.ReducesTo [1] S512x128
  reducesTo_S512x256x128_S512x128_d1 : S512x256x128.ReducesTo [1] S512x128
  reducesTo_S512x320x128_S512x128_d1 : S512x320x128.ReducesTo [1] S512x128
  reducesTo_S512x384x128_S512x128_d1 : S512x384x128.ReducesTo [1] S512x128
  reducesTo_S512x448x128_S512x128_d1 : S512x448x128.ReducesTo [1] S512x128
  reducesTo_S512x512x128_S512x128_d1 : S512x512x128.ReducesTo [1] S512x128
  concatenates_S512x128_S512x128_S512x128_S512x128_S512x128_S512x128_S512x128_S512x128_S512x1024_d1 : Shape.Concatenates [S512x128, S512x128, S512x128, S512x128, S512x128, S512x128, S512x128, S512x128] S512x1024 1

variable [Facts₀]

class Facts : Prop extends Facts₀ where

variable [Facts]
-- ==== Proof.LibMidAxisSum.lean ====
/-
  A sum over the MIDDLE axis of a rank-3 array, read at a row and a lane.

  For an array `x` of shape [n, L, c], the lane-wise `vector.multi_reduction <add>` over axis 1 into [n, c],
  read on the extended reals at (r, d), is the finite sum `∑ l : Fin L, x (r, l, d)`: the accumulator is the
  sum's neutral element and contributes nothing, and the index the reduction inserts at position `l` of the
  reduced axis is (r, l, d). Generic in the three extents.
-/
import Idealize.ShloMosaic.Lib.ValueIdx
import Idealize.ShloMosaic.PureOps.Ideal.Laws

noncomputable section

namespace Cert.MidAxisSum

open Idealize.ShloMosaic Idealize.ShloMosaic.ValueIdx

/-- The sum over the middle axis of an [n, L, c] array of extended reals, at row `r` and lane `d`. -/
def midSum {n L c : ℕ} (X : (⟨3, ![n, L, c]⟩ : Shape).Idx → EReal) (r : Fin n) (d : Fin c) : EReal :=
  ∑ l : Fin L, X (ix3 r l d)

/-- Reducing [n, L, c] over axis 1: the index that sits over (r, d) at position `l` of the reduced axis is (r, l, d). -/
theorem lift_mid {n L c : ℕ} (h : Shape.Reduces ⟨3, ![n, L, c]⟩ [1] ⟨2, ![n, c]⟩) (r : Fin n) (d : Fin c) (l : Fin L) :
    h.lift (ix2 r d) l = ix3 r l d := by
  funext a; apply Fin.ext
  match a with
  | ⟨0, _⟩ => rfl
  | ⟨1, _⟩ => rfl
  | ⟨2, _⟩ => rfl

/-- A float sum over the middle axis from the zero accumulator, on the extended reals, at (r, d): the sum over
    `l` of the source at (r, l, d). -/
theorem multiReduction_mid_apply {n L c : ℕ} (src : FVec Ideal ⟨3, ![n, L, c]⟩ .f32)
    (h : Shape.Reduces ⟨3, ![n, L, c]⟩ [1] ⟨2, ![n, c]⟩) (hφ : FKind.Formats .f32)
    (hacc : (0x00000000#32 : BitVec 32) = FKind.add.neutral .f32 hφ) (r : Fin n) (d : Fin c) :
    multiReduction .add [1] ⟨2, ![n, c]⟩ src 0x00000000#32 h hφ hacc (ix2 r d) = midSum src r d :=
  (Ideal.multiReduction_add_single src 0x00000000#32 h hφ hacc (ix2 r d)).trans
    (Finset.sum_congr rfl fun l _ => congrArg src (lift_mid h r d l))

/-- Two middle-axis sums whose summands agree position by position are equal (the two arrays may differ in their number of
    rows: a block of rows against the whole array). -/
theorem midSum_congr {n n' L c : ℕ} (X : (⟨3, ![n, L, c]⟩ : Shape).Idx → EReal) (Y : (⟨3, ![n', L, c]⟩ : Shape).Idx → EReal)
    (r : Fin n) (R : Fin n') (d : Fin c) (h : ∀ l : Fin L, X (ix3 r l d) = Y (ix3 R l d)) : midSum X r d = midSum Y R d :=
  Finset.sum_congr rfl fun l _ => h l

/-- An index of an [n, L, c] array whose three coordinates are those of (r, l, d) is (r, l, d). -/
theorem eq_ix3_of_val {n L c : ℕ} (f : (⟨3, ![n, L, c]⟩ : Shape).Idx) (r : Fin n) (l : Fin L) (d : Fin c)
    (h0 : (f 0).val = r.val) (h1 : (f 1).val = l.val) (h2 : (f 2).val = d.val) : f = ix3 r l d := by
  funext a; apply Fin.ext
  match a with
  | ⟨0, _⟩ => exact h0
  | ⟨1, _⟩ => exact h1
  | ⟨2, _⟩ => exact h2

/-- A sum over the middle axis started from the zero word, on the extended reals: the zero word is the real 0 and
    adds nothing, whatever way the summand's index (r, l, d) is spelt. -/
theorem zero_add_midSum {n L c : ℕ} (x : (⟨3, ![n, L, c]⟩ : Shape).Idx → EReal) (r : Fin n) (d : Fin c)
    (g : Fin L → (⟨3, ![n, L, c]⟩ : Shape).Idx) (hg : ∀ l, g l = ix3 r l d) :
    Ideal.ofBits .f32 0x00000000#32 + ∑ l : Fin L, x (g l) = midSum x r d := by
  rw [Ideal.ofBits_zero_f32, zero_add]
  exact Finset.sum_congr rfl fun l _ => congrArg x (hg l)

end Cert.MidAxisSum

end
-- ==== Proof.RaggedSum.lean ====
/-
  The result both programs compute, as ONE function of the eight argument arrays.

  The inputs are eight arrays x₀ … x₇ of shapes [n, 64(k+1), 128]. The result is the [n, 1024] array whose row `r`
  is eight bands of 128 lanes laid side by side: band `k`, lane `d` holds the sum of x_k over its middle axis,
  `∑ l, x_k (r, l, d)`. So the entry at column `j` belongs to band `j / 128` and lane `j % 128`.
  Generic in the row count `n`: at `n = 512` it is the whole result, at `n = 8` one block of eight rows.
-/
import proofs.«102761_j48773648613702_2_alg».proof.Proof.LibMidAxisSum

noncomputable section

namespace Cert.RaggedSum

open Idealize.ShloMosaic Idealize.ShloMosaic.ValueIdx Cert.MidAxisSum

variable {n : ℕ}
  (X0 : (⟨3, ![n, 64, 128]⟩ : Shape).Idx → EReal) (X1 : (⟨3, ![n, 128, 128]⟩ : Shape).Idx → EReal)
  (X2 : (⟨3, ![n, 192, 128]⟩ : Shape).Idx → EReal) (X3 : (⟨3, ![n, 256, 128]⟩ : Shape).Idx → EReal)
  (X4 : (⟨3, ![n, 320, 128]⟩ : Shape).Idx → EReal) (X5 : (⟨3, ![n, 384, 128]⟩ : Shape).Idx → EReal)
  (X6 : (⟨3, ![n, 448, 128]⟩ : Shape).Idx → EReal) (X7 : (⟨3, ![n, 512, 128]⟩ : Shape).Idx → EReal)

/-- Band `k` of row `r`: the middle-axis sums of the `k`-th array, lane by lane. -/
def band (r : Fin n) : Fin 8 → Fin 128 → EReal
  | ⟨0, _⟩ => midSum X0 r
  | ⟨1, _⟩ => midSum X1 r
  | ⟨2, _⟩ => midSum X2 r
  | ⟨3, _⟩ => midSum X3 r
  | ⟨4, _⟩ => midSum X4 r
  | ⟨5, _⟩ => midSum X5 r
  | ⟨6, _⟩ => midSum X6 r
  | ⟨7, _⟩ => midSum X7 r

/-- The eight bands side by side, at row `r` and column `j`: band `j / 128` at lane `j % 128`. -/
def catAt (r : Fin n) (j : Fin 1024) : EReal :=
  band X0 X1 X2 X3 X4 X5 X6 X7 r ⟨j.val / 128, Nat.div_lt_of_lt_mul j.isLt⟩ ⟨j.val % 128, Nat.mod_lt _ (by decide)⟩

/-- The [n, 1024] array of the eight bands side by side. -/
def catSums : (⟨2, ![n, 1024]⟩ : Shape).Idx → EReal := fun i =>
  catAt X0 X1 X2 X3 X4 X5 X6 X7 ⟨(i 0).val, (i 0).isLt⟩ ⟨(i 1).val, (i 1).isLt⟩

/-- Column `128 k + d` is lane `d` of band `k`. -/
theorem catAt_eq_band (r : Fin n) (j : Fin 1024) (k : Fin 8) (d : Fin 128) (h : j.val = 128 * k.val + d.val) :
    catAt X0 X1 X2 X3 X4 X5 X6 X7 r j = band X0 X1 X2 X3 X4 X5 X6 X7 r k d := by
  have hk : k.val < 8 := k.isLt
  have hd : d.val < 128 := d.isLt
  have e1 : (⟨j.val / 128, Nat.div_lt_of_lt_mul j.isLt⟩ : Fin 8) = k := Fin.ext (by show j.val / 128 = k.val; omega)
  have e2 : (⟨j.val % 128, Nat.mod_lt _ (by decide)⟩ : Fin 128) = d := Fin.ext (by show j.val % 128 = d.val; omega)
  unfold catAt
  rw [e1, e2]

/-- An index in row `R` whose column is lane `d` of band `k` reads band `k` of row `R` at lane `d`. -/
theorem catSums_eq_band (i : (⟨2, ![n, 1024]⟩ : Shape).Idx) (R : Fin n) (k : Fin 8) (d : Fin 128)
    (h0 : (i 0).val = R.val) (h1 : (i 1).val = 128 * k.val + d.val) :
    catSums X0 X1 X2 X3 X4 X5 X6 X7 i = band X0 X1 X2 X3 X4 X5 X6 X7 R k d := by
  have e0 : (⟨(i 0).val, (i 0).isLt⟩ : Fin n) = R := Fin.ext h0
  unfold catSums
  rw [e0]
  exact catAt_eq_band X0 X1 X2 X3 X4 X5 X6 X7 R ⟨(i 1).val, (i 1).isLt⟩ k d h1

end Cert.RaggedSum

end
-- ==== Proof.RefRead.lean ====
/-
  The reference, index by index.

  The reference sums each array over its middle axis on the host, from the zero word, and then lays the eight
  [512, 128] results side by side along the columns. Read on the extended reals: the zero word is the real 0, so each
  host sum at (b, d) is `∑ l, x_k (b, l, d)`; and the entry of the concatenation at column `128 k + d` is the
  `k`-th piece at lane `d`. So the reference's result is the eight bands of middle-axis sums side by side.
-/
import proofs.«102761_j48773648613702_2_alg».proof.Proof.Gen.ReferenceIdeal.Read
import proofs.«102761_j48773648613702_2_alg».proof.Proof.RaggedSum
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx Cert.MidAxisSum Cert.RaggedSum

/-! ## Each host sum at a row and a lane

Each is the generated reading of the host sum (the initial value plus the sum over the middle coordinate), with the
zero word dropped and the summand's index recognised as (b, l, d). -/

theorem sum0 (x : (⟨S512x64x128, .f32⟩ : BufTy).Contents (Elt Ideal)) (b : Fin 512) (d : Fin 128) :
    val_main_v0 (F := Ideal) x (ix2 b d) = midSum x b d := by
  rw [val_main_v0_apply, val_main_cst_apply, Ideal.ofBits_def]
  exact zero_add_midSum x b d _ fun l => eq_ix3_of_val _ b l d rfl rfl rfl

theorem sum1 (x : (⟨S512x128x128, .f32⟩ : BufTy).Contents (Elt Ideal)) (b : Fin 512) (d : Fin 128) :
    val_main_v1 (F := Ideal) x (ix2 b d) = midSum x b d := by
  rw [val_main_v1_apply, val_main_cst_0_apply, Ideal.ofBits_def]
  exact zero_add_midSum x b d _ fun l => eq_ix3_of_val _ b l d rfl rfl rfl

theorem sum2 (x : (⟨S512x192x128, .f32⟩ : BufTy).Contents (Elt Ideal)) (b : Fin 512) (d : Fin 128) :
    val_main_v2 (F := Ideal) x (ix2 b d) = midSum x b d := by
  rw [val_main_v2_apply, val_main_cst_1_apply, Ideal.ofBits_def]
  exact zero_add_midSum x b d _ fun l => eq_ix3_of_val _ b l d rfl rfl rfl

theorem sum3 (x : (⟨S512x256x128, .f32⟩ : BufTy).Contents (Elt Ideal)) (b : Fin 512) (d : Fin 128) :
    val_main_v3 (F := Ideal) x (ix2 b d) = midSum x b d := by
  rw [val_main_v3_apply, val_main_cst_2_apply, Ideal.ofBits_def]
  exact zero_add_midSum x b d _ fun l => eq_ix3_of_val _ b l d rfl rfl rfl

theorem sum4 (x : (⟨S512x320x128, .f32⟩ : BufTy).Contents (Elt Ideal)) (b : Fin 512) (d : Fin 128) :
    val_main_v4 (F := Ideal) x (ix2 b d) = midSum x b d := by
  rw [val_main_v4_apply, val_main_cst_3_apply, Ideal.ofBits_def]
  exact zero_add_midSum x b d _ fun l => eq_ix3_of_val _ b l d rfl rfl rfl

theorem sum5 (x : (⟨S512x384x128, .f32⟩ : BufTy).Contents (Elt Ideal)) (b : Fin 512) (d : Fin 128) :
    val_main_v5 (F := Ideal) x (ix2 b d) = midSum x b d := by
  rw [val_main_v5_apply, val_main_cst_4_apply, Ideal.ofBits_def]
  exact zero_add_midSum x b d _ fun l => eq_ix3_of_val _ b l d rfl rfl rfl

theorem sum6 (x : (⟨S512x448x128, .f32⟩ : BufTy).Contents (Elt Ideal)) (b : Fin 512) (d : Fin 128) :
    val_main_v6 (F := Ideal) x (ix2 b d) = midSum x b d := by
  rw [val_main_v6_apply, val_main_cst_5_apply, Ideal.ofBits_def]
  exact zero_add_midSum x b d _ fun l => eq_ix3_of_val _ b l d rfl rfl rfl

theorem sum7 (x : (⟨S512x512x128, .f32⟩ : BufTy).Contents (Elt Ideal)) (b : Fin 512) (d : Fin 128) :
    val_main_v7 (F := Ideal) x (ix2 b d) = midSum x b d := by
  rw [val_main_v7_apply, val_main_cst_6_apply, Ideal.ofBits_def]
  exact zero_add_midSum x b d _ fun l => eq_ix3_of_val _ b l d rfl rfl rfl

/-! ## The concatenation at a column -/

/-- Eight [512, 128] pieces laid side by side along the columns, read at row `b`, column `128 k + d`: piece `k` at
    (b, d). -/
theorem cat_read (u : Fin 8 → S512x128.Idx → EReal) (b : Fin 512) (j : Fin 1024) (k : Fin 8) (d : Fin 128)
    (hj : j.val = 128 * k.val + d.val) :
    concatenate S512x1024 1 [⟨S512x128, u 0⟩, ⟨S512x128, u 1⟩, ⟨S512x128, u 2⟩, ⟨S512x128, u 3⟩, ⟨S512x128, u 4⟩, ⟨S512x128, u 5⟩, ⟨S512x128, u 6⟩, ⟨S512x128, u 7⟩] concatenates_S512x128_S512x128_S512x128_S512x128_S512x128_S512x128_S512x128_S512x128_S512x1024_d1 (ix2 b j)
      = u k (ix2 b d) := by
  have hk : k.val < 8 := k.isLt
  have hd : d.val < 128 := d.isLt
  refine concatenate_ofFn_apply (t := S512x1024) (1 : Fin 2) u _ rfl 128 rfl (ix2 b j) k ?_ (ix2 b d) ?_ ?_
  · show j.val / 128 = k.val; omega
  · show d.val = j.val % 128; omega
  · intro a ha
    match a with
    | ⟨0, _⟩ => rfl
    | ⟨1, _⟩ => exact absurd rfl ha

/-! ## The reference's result is the eight bands side by side -/

/-- The reference's last stage, as a function of the eight arrays, is the array of the eight bands of middle-axis
    sums side by side. -/
theorem ref_eq (x0 : (⟨S512x64x128, .f32⟩ : BufTy).Contents (Elt Ideal)) (x1 : (⟨S512x128x128, .f32⟩ : BufTy).Contents (Elt Ideal))
    (x2 : (⟨S512x192x128, .f32⟩ : BufTy).Contents (Elt Ideal)) (x3 : (⟨S512x256x128, .f32⟩ : BufTy).Contents (Elt Ideal))
    (x4 : (⟨S512x320x128, .f32⟩ : BufTy).Contents (Elt Ideal)) (x5 : (⟨S512x384x128, .f32⟩ : BufTy).Contents (Elt Ideal))
    (x6 : (⟨S512x448x128, .f32⟩ : BufTy).Contents (Elt Ideal)) (x7 : (⟨S512x512x128, .f32⟩ : BufTy).Contents (Elt Ideal)) :
    val_main_v8 (F := Ideal) x0 x1 x2 x3 x4 x5 x6 x7 = catSums x0 x1 x2 x3 x4 x5 x6 x7 := by
  funext i
  obtain ⟨b, j, rfl⟩ : ∃ (b : Fin 512) (j : Fin 1024), i = ix2 b j := ⟨i 0, i 1, eq_ix2 i⟩
  have hj : j.val < 1024 := j.isLt
  have hjk : j.val = 128 * (j.val / 128) + j.val % 128 := by omega
  rw [catSums_eq_band x0 x1 x2 x3 x4 x5 x6 x7 (ix2 b j) b ⟨j.val / 128, by omega⟩ ⟨j.val % 128, by omega⟩ rfl hjk]
  unfold val_main_v8
  refine (cat_read ![val_main_v0 (F := Ideal) x0, val_main_v1 (F := Ideal) x1, val_main_v2 (F := Ideal) x2, val_main_v3 (F := Ideal) x3, val_main_v4 (F := Ideal) x4, val_main_v5 (F := Ideal) x5, val_main_v6 (F := Ideal) x6, val_main_v7 (F := Ideal) x7]
    b j ⟨j.val / 128, by omega⟩ ⟨j.val % 128, by omega⟩ hjk).trans ?_
  generalize (⟨j.val % 128, _⟩ : Fin 128) = d
  generalize (⟨j.val / 128, _⟩ : Fin 8) = k
  match k with
  | ⟨0, _⟩ => exact sum0 x0 b d
  | ⟨1, _⟩ => exact sum1 x1 b d
  | ⟨2, _⟩ => exact sum2 x2 b d
  | ⟨3, _⟩ => exact sum3 x3 b d
  | ⟨4, _⟩ => exact sum4 x4 b d
  | ⟨5, _⟩ => exact sum5 x5 b d
  | ⟨6, _⟩ => exact sum6 x6 b d
  | ⟨7, _⟩ => exact sum7 x7 b d

end Cert.ReferenceIdeal.RefValue

end
-- ==== Proof.KernelBlock.lean ====
/-
  One block of the kernel's output, as the eight bands side by side.

  At a grid point the body reads the eight input blocks [8, 64(k+1), 128] whole, sums each over its middle axis from the
  zero accumulator, and stores the [8, 128] sum of block `k` into columns 128 k … 128 k + 127 of the [8, 1024] output
  block. The eight stores tile the output block, and each one's payload is the band of the block function its rectangle
  names: so the block the body leaves is the eight bands of middle-axis sums side by side, of the eight input blocks.
-/
import proofs.«102761_j48773648613702_2_alg».proof.Proof.Gen.KernelIdeal.Frame
import proofs.«102761_j48773648613702_2_alg».proof.Proof.RaggedSum
import Idealize.ShloMosaic.Lib.Pipeline.Value

noncomputable section

namespace Cert.KernelIdeal.BlockValue

open Cert.KernelIdeal Cert.KernelIdeal.Gen
open Idealize.ShloMosaic Idealize.ShloMosaic.ValueIdx Cert.MidAxisSum Cert.RaggedSum

theorem zero3 : (![0, 0, 0] : Fin 3 → Nat) = fun _ => 0 := funext fun a => by fin_cases a <;> rfl

/-! ## Each store's payload at a row and a lane: the middle-axis sum of the block it was computed from -/

theorem pay_blk0 (x : Vec Ideal S8x64x128 .f32) (r : Fin 8) (d : Fin 128) : k0_pay3 x (ix2 r d) = midSum x r d := by
  unfold k0_pay3; exact multiReduction_mid_apply x _ _ _ r d

theorem pay_blk1 (x : Vec Ideal S8x128x128 .f32) (r : Fin 8) (d : Fin 128) : k0_pay4 x (ix2 r d) = midSum x r d := by
  unfold k0_pay4; exact multiReduction_mid_apply x _ _ _ r d

theorem pay_blk2 (x : Vec Ideal S8x192x128 .f32) (r : Fin 8) (d : Fin 128) : k0_pay5 x (ix2 r d) = midSum x r d := by
  unfold k0_pay5; exact multiReduction_mid_apply x _ _ _ r d

theorem pay_blk3 (x : Vec Ideal S8x256x128 .f32) (r : Fin 8) (d : Fin 128) : k0_pay6 x (ix2 r d) = midSum x r d := by
  unfold k0_pay6; exact multiReduction_mid_apply x _ _ _ r d

theorem pay_blk4 (x : Vec Ideal S8x320x128 .f32) (r : Fin 8) (d : Fin 128) : k0_pay7 x (ix2 r d) = midSum x r d := by
  unfold k0_pay7; exact multiReduction_mid_apply x _ _ _ r d

theorem pay_blk5 (x : Vec Ideal S8x384x128 .f32) (r : Fin 8) (d : Fin 128) : k0_pay8 x (ix2 r d) = midSum x r d := by
  unfold k0_pay8; exact multiReduction_mid_apply x _ _ _ r d

theorem pay_blk6 (x : Vec Ideal S8x448x128 .f32) (r : Fin 8) (d : Fin 128) : k0_pay1 x (ix2 r d) = midSum x r d := by
  unfold k0_pay1; exact multiReduction_mid_apply x _ _ _ r d

theorem pay_blk7 (x : Vec Ideal S8x512x128 .f32) (r : Fin 8) (d : Fin 128) : k0_pay2 x (ix2 r d) = midSum x r d := by
  unfold k0_pay2; exact multiReduction_mid_apply x _ _ _ r d

/-! ## A store at column offset 128 k whose payload is band k is that band of the block function -/

/-- A piece stored through the [8, 128] rectangle at column offset `128 k` of the [8, 1024] block, whose payload at
    (r, d) is band `k` of row `r` at lane `d`, agrees with the block function at every index of its rectangle: the
    rectangle's index (r, d) sits at (r, 128 k + d) of the block. -/
theorem piece_eq (x0 : Vec Ideal S8x64x128 .f32) (x1 : Vec Ideal S8x128x128 .f32) (x2 : Vec Ideal S8x192x128 .f32) (x3 : Vec Ideal S8x256x128 .f32)
    (x4 : Vec Ideal S8x320x128 .f32) (x5 : Vec Ideal S8x384x128 .f32) (x6 : Vec Ideal S8x448x128 .f32) (x7 : Vec Ideal S8x512x128 .f32)
    (k : Fin 8) (off : ℕ) (hoff : off = 128 * k.val)
    (inb : ∀ a, (![0, off] : Fin 2 → ℕ) a + S8x128.size a ≤ S8x1024.size a)
    (w : S8x128.Idx → EReal) (hw : ∀ (r : Fin 8) (d : Fin 128), w (ix2 r d) = band x0 x1 x2 x3 x4 x5 x6 x7 r k d)
    (x : S8x128.Idx) :
    w x = catSums x0 x1 x2 x3 x4 x5 x6 x7 ((Rect.unit (s := S8x1024) ![0, off] S8x128.size inb).emb x) := by
  obtain ⟨r, d, rfl⟩ : ∃ (r : Fin 8) (d : Fin 128), x = ix2 r d := ⟨x 0, x 1, eq_ix2 x⟩
  rw [hw]
  refine (catSums_eq_band x0 x1 x2 x3 x4 x5 x6 x7 _ r k d ?_ ?_).symm
  · show 0 + 1 * r.val = r.val; omega
  · show off + 1 * d.val = 128 * k.val + d.val; omega

/-! ## The block the body leaves -/

/-- The output block the body leaves, from the eight input blocks: the eight bands of middle-axis sums side by side. -/
theorem block_eq (x0 : Vec Ideal S8x64x128 .f32) (x1 : Vec Ideal S8x128x128 .f32) (x2 : Vec Ideal S8x192x128 .f32) (x3 : Vec Ideal S8x256x128 .f32)
    (x4 : Vec Ideal S8x320x128 .f32) (x5 : Vec Ideal S8x384x128 .f32) (x6 : Vec Ideal S8x448x128 .f32) (x7 : Vec Ideal S8x512x128 .f32) :
    out0_8 x0 x1 x2 x3 x4 x5 x6 x7 = catSums x0 x1 x2 x3 x4 x5 x6 x7 := by
  funext y
  unfold out0_8
  refine View.canon_apply_of_pieces (Val := Elt Ideal) (S := S8x1024) (e := .f32) (catSums x0 x1 x2 x3 x4 x5 x6 x7) _ ?_ y (cover0_8 _ _ _ _ _ _ _ _ y)
  intro p hp
  simp only [List.mem_cons, List.not_mem_nil, or_false] at hp
  rcases hp with rfl | rfl | rfl | rfl | rfl | rfl | rfl | rfl
  · exact piece_eq x0 x1 x2 x3 x4 x5 x6 x7 7 896 rfl inb_S8x1024_S8x128_0_896 (k0_pay2 (View.ld x7 r0_14)) fun r d => by
      rw [View.ld_unit_zero zero3]; exact pay_blk7 x7 r d
  · exact piece_eq x0 x1 x2 x3 x4 x5 x6 x7 6 768 rfl inb_S8x1024_S8x128_0_768 (k0_pay1 (View.ld x6 r0_12)) fun r d => by
      rw [View.ld_unit_zero zero3]; exact pay_blk6 x6 r d
  · exact piece_eq x0 x1 x2 x3 x4 x5 x6 x7 5 640 rfl inb_S8x1024_S8x128_0_640 (k0_pay8 (View.ld x5 r0_10)) fun r d => by
      rw [View.ld_unit_zero zero3]; exact pay_blk5 x5 r d
  · exact piece_eq x0 x1 x2 x3 x4 x5 x6 x7 4 512 rfl inb_S8x1024_S8x128_0_512 (k0_pay7 (View.ld x4 r0_8)) fun r d => by
      rw [View.ld_unit_zero zero3]; exact pay_blk4 x4 r d
  · exact piece_eq x0 x1 x2 x3 x4 x5 x6 x7 3 384 rfl inb_S8x1024_S8x128_0_384 (k0_pay6 (View.ld x3 r0_6)) fun r d => by
      rw [View.ld_unit_zero zero3]; exact pay_blk3 x3 r d
  · exact piece_eq x0 x1 x2 x3 x4 x5 x6 x7 2 256 rfl inb_S8x1024_S8x128_0_256 (k0_pay5 (View.ld x2 r0_4)) fun r d => by
      rw [View.ld_unit_zero zero3]; exact pay_blk2 x2 r d
  · exact piece_eq x0 x1 x2 x3 x4 x5 x6 x7 1 128 rfl inb_S8x1024_S8x128_0_128 (k0_pay4 (View.ld x1 r0_2)) fun r d => by
      rw [View.ld_unit_zero zero3]; exact pay_blk1 x1 r d
  · exact piece_eq x0 x1 x2 x3 x4 x5 x6 x7 0 0 rfl inb_S8x1024_S8x128_0_0 (k0_pay3 (View.ld x0 r0_0)) fun r d => by
      rw [View.ld_unit_zero zero3]; exact pay_blk0 x0 r d

end Cert.KernelIdeal.BlockValue

end
-- ==== Proof.KernelArray.lean ====
/-
  The kernel's result array, as the eight bands side by side.

  The grid has 64 points; point `t` works on rows 8 q … 8 q + 7 of every array, `q` its block index: input window `k`
  stages rows 8 q … 8 q + 7 of array `k` whole (all of its middle axis, all 128 lanes), and the output window writes back
  rows 8 q … 8 q + 7 of the result, all 1024 columns. So entry (r, l, d) of input block `k` is entry (8 q + r, l, d) of array `k`,
  the middle-axis sums of the blocks are those of the arrays at row 8 q + r, and what point `t` writes back is block `t` of the
  whole-array function. The 64 output blocks cover the result (row `i` lies in block `i / 8`), so the result IS that function.
-/
import proofs.«102761_j48773648613702_2_alg».proof.Proof.Gen.KernelIdeal.Value
import proofs.«102761_j48773648613702_2_alg».proof.Proof.KernelBlock

noncomputable section

namespace Cert.KernelIdeal.ArrayValue

open Cert.KernelIdeal Cert.KernelIdeal.Gen Idealize.ShloMosaic Idealize.ShloMosaic.TcCoe Idealize.SL.Sem
open Idealize.ShloMosaic.ValueIdx Cert.MidAxisSum Cert.RaggedSum
open Idealize.ShloMosaic.Pipeline (Dat)

variable (m : (ℓ : Loc nD τ sig) → Buf (Elt Ideal) ℓ) (ρ : Dev nD → PrngReg)

/-! ## The index maps, decided over the 64 grid points -/

/-- The output window's block index: some `q ≤ 63` along the rows, 0 along the columns. -/
theorem idx_out : ∀ t : Fin cfg0.N, win0_8.index t (0 : Fin 2) ≤ 63 ∧ win0_8.index t (1 : Fin 2) = 0 :=
  (by decide +kernel : ∀ t : Fin grid0.N, _)

/-- Every row block of the result is some point's. -/
theorem idx_onto : ∀ q : Fin 64, ∃ t : Fin cfg0.N, win0_8.index t = ![q.val, 0] :=
  (by decide +kernel : ∀ q : Fin 64, ∃ t : Fin grid0.N, win0_8.index t = ![q.val, 0])

/-- Each input window moves with the output window along the rows and stays at 0 on its other two axes. -/
theorem idx_in0 : ∀ t : Fin cfg0.N, win0_0.index t (0 : Fin 3) = win0_8.index t (0 : Fin 2) ∧ win0_0.index t (1 : Fin 3) = 0 ∧ win0_0.index t (2 : Fin 3) = 0 :=
  (by decide +kernel : ∀ t : Fin grid0.N, _)
theorem idx_in1 : ∀ t : Fin cfg0.N, win0_1.index t (0 : Fin 3) = win0_8.index t (0 : Fin 2) ∧ win0_1.index t (1 : Fin 3) = 0 ∧ win0_1.index t (2 : Fin 3) = 0 :=
  (by decide +kernel : ∀ t : Fin grid0.N, _)
theorem idx_in2 : ∀ t : Fin cfg0.N, win0_2.index t (0 : Fin 3) = win0_8.index t (0 : Fin 2) ∧ win0_2.index t (1 : Fin 3) = 0 ∧ win0_2.index t (2 : Fin 3) = 0 :=
  (by decide +kernel : ∀ t : Fin grid0.N, _)
theorem idx_in3 : ∀ t : Fin cfg0.N, win0_3.index t (0 : Fin 3) = win0_8.index t (0 : Fin 2) ∧ win0_3.index t (1 : Fin 3) = 0 ∧ win0_3.index t (2 : Fin 3) = 0 :=
  (by decide +kernel : ∀ t : Fin grid0.N, _)
theorem idx_in4 : ∀ t : Fin cfg0.N, win0_4.index t (0 : Fin 3) = win0_8.index t (0 : Fin 2) ∧ win0_4.index t (1 : Fin 3) = 0 ∧ win0_4.index t (2 : Fin 3) = 0 :=
  (by decide +kernel : ∀ t : Fin grid0.N, _)
theorem idx_in5 : ∀ t : Fin cfg0.N, win0_5.index t (0 : Fin 3) = win0_8.index t (0 : Fin 2) ∧ win0_5.index t (1 : Fin 3) = 0 ∧ win0_5.index t (2 : Fin 3) = 0 :=
  (by decide +kernel : ∀ t : Fin grid0.N, _)
theorem idx_in6 : ∀ t : Fin cfg0.N, win0_6.index t (0 : Fin 3) = win0_8.index t (0 : Fin 2) ∧ win0_6.index t (1 : Fin 3) = 0 ∧ win0_6.index t (2 : Fin 3) = 0 :=
  (by decide +kernel : ∀ t : Fin grid0.N, _)
theorem idx_in7 : ∀ t : Fin cfg0.N, win0_7.index t (0 : Fin 3) = win0_8.index t (0 : Fin 2) ∧ win0_7.index t (1 : Fin 3) = 0 ∧ win0_7.index t (2 : Fin 3) = 0 :=
  (by decide +kernel : ∀ t : Fin grid0.N, _)

/-! ## An input block's entry in its array

Entry (r, l, d) of window `k`'s block at point `t` is entry (R, l, d) of array `k`, `R = 8 q + r` with `q` the output
window's row block index at `t`: on each axis an element of a block sits at the block index times the block's extent plus
its own coordinate. -/

theorem read_blk0 (c : Dev nD) (t : Fin cfg0.N) (r : Fin 8) (l : Fin 64) (d : Fin 128) (R : Fin 512)
    (hR : R.val = win0_8.index t (0 : Fin 2) * 8 + r.val) : iblk m c 0 t (ix3 r l d) = V m c main_arg0 (ix3 R l d) := by
  obtain ⟨e0, e1, e2⟩ := idx_in0 t
  show V m c main_arg0 (((cfg0.win 0).blk t).view.emb (ix3 r l d)) = _
  rw [eq_ix3_of_val (((cfg0.win 0).blk t).view.emb (ix3 r l d)) R l d
    (by show win0_0.index t (0 : Fin 3) * 8 + 1 * r.val = R.val; omega)
    (by show win0_0.index t (1 : Fin 3) * 64 + 1 * l.val = l.val; omega)
    (by show win0_0.index t (2 : Fin 3) * 128 + 1 * d.val = d.val; omega)]

theorem read_blk1 (c : Dev nD) (t : Fin cfg0.N) (r : Fin 8) (l : Fin 128) (d : Fin 128) (R : Fin 512)
    (hR : R.val = win0_8.index t (0 : Fin 2) * 8 + r.val) : iblk m c 1 t (ix3 r l d) = V m c main_arg1 (ix3 R l d) := by
  obtain ⟨e0, e1, e2⟩ := idx_in1 t
  show V m c main_arg1 (((cfg0.win 1).blk t).view.emb (ix3 r l d)) = _
  rw [eq_ix3_of_val (((cfg0.win 1).blk t).view.emb (ix3 r l d)) R l d
    (by show win0_1.index t (0 : Fin 3) * 8 + 1 * r.val = R.val; omega)
    (by show win0_1.index t (1 : Fin 3) * 128 + 1 * l.val = l.val; omega)
    (by show win0_1.index t (2 : Fin 3) * 128 + 1 * d.val = d.val; omega)]

theorem read_blk2 (c : Dev nD) (t : Fin cfg0.N) (r : Fin 8) (l : Fin 192) (d : Fin 128) (R : Fin 512)
    (hR : R.val = win0_8.index t (0 : Fin 2) * 8 + r.val) : iblk m c 2 t (ix3 r l d) = V m c main_arg2 (ix3 R l d) := by
  obtain ⟨e0, e1, e2⟩ := idx_in2 t
  show V m c main_arg2 (((cfg0.win 2).blk t).view.emb (ix3 r l d)) = _
  rw [eq_ix3_of_val (((cfg0.win 2).blk t).view.emb (ix3 r l d)) R l d
    (by show win0_2.index t (0 : Fin 3) * 8 + 1 * r.val = R.val; omega)
    (by show win0_2.index t (1 : Fin 3) * 192 + 1 * l.val = l.val; omega)
    (by show win0_2.index t (2 : Fin 3) * 128 + 1 * d.val = d.val; omega)]

theorem read_blk3 (c : Dev nD) (t : Fin cfg0.N) (r : Fin 8) (l : Fin 256) (d : Fin 128) (R : Fin 512)
    (hR : R.val = win0_8.index t (0 : Fin 2) * 8 + r.val) : iblk m c 3 t (ix3 r l d) = V m c main_arg3 (ix3 R l d) := by
  obtain ⟨e0, e1, e2⟩ := idx_in3 t
  show V m c main_arg3 (((cfg0.win 3).blk t).view.emb (ix3 r l d)) = _
  rw [eq_ix3_of_val (((cfg0.win 3).blk t).view.emb (ix3 r l d)) R l d
    (by show win0_3.index t (0 : Fin 3) * 8 + 1 * r.val = R.val; omega)
    (by show win0_3.index t (1 : Fin 3) * 256 + 1 * l.val = l.val; omega)
    (by show win0_3.index t (2 : Fin 3) * 128 + 1 * d.val = d.val; omega)]

theorem read_blk4 (c : Dev nD) (t : Fin cfg0.N) (r : Fin 8) (l : Fin 320) (d : Fin 128) (R : Fin 512)
    (hR : R.val = win0_8.index t (0 : Fin 2) * 8 + r.val) : iblk m c 4 t (ix3 r l d) = V m c main_arg4 (ix3 R l d) := by
  obtain ⟨e0, e1, e2⟩ := idx_in4 t
  show V m c main_arg4 (((cfg0.win 4).blk t).view.emb (ix3 r l d)) = _
  rw [eq_ix3_of_val (((cfg0.win 4).blk t).view.emb (ix3 r l d)) R l d
    (by show win0_4.index t (0 : Fin 3) * 8 + 1 * r.val = R.val; omega)
    (by show win0_4.index t (1 : Fin 3) * 320 + 1 * l.val = l.val; omega)
    (by show win0_4.index t (2 : Fin 3) * 128 + 1 * d.val = d.val; omega)]

theorem read_blk5 (c : Dev nD) (t : Fin cfg0.N) (r : Fin 8) (l : Fin 384) (d : Fin 128) (R : Fin 512)
    (hR : R.val = win0_8.index t (0 : Fin 2) * 8 + r.val) : iblk m c 5 t (ix3 r l d) = V m c main_arg5 (ix3 R l d) := by
  obtain ⟨e0, e1, e2⟩ := idx_in5 t
  show V m c main_arg5 (((cfg0.win 5).blk t).view.emb (ix3 r l d)) = _
  rw [eq_ix3_of_val (((cfg0.win 5).blk t).view.emb (ix3 r l d)) R l d
    (by show win0_5.index t (0 : Fin 3) * 8 + 1 * r.val = R.val; omega)
    (by show win0_5.index t (1 : Fin 3) * 384 + 1 * l.val = l.val; omega)
    (by show win0_5.index t (2 : Fin 3) * 128 + 1 * d.val = d.val; omega)]

theorem read_blk6 (c : Dev nD) (t : Fin cfg0.N) (r : Fin 8) (l : Fin 448) (d : Fin 128) (R : Fin 512)
    (hR : R.val = win0_8.index t (0 : Fin 2) * 8 + r.val) : iblk m c 6 t (ix3 r l d) = V m c main_arg6 (ix3 R l d) := by
  obtain ⟨e0, e1, e2⟩ := idx_in6 t
  show V m c main_arg6 (((cfg0.win 6).blk t).view.emb (ix3 r l d)) = _
  rw [eq_ix3_of_val (((cfg0.win 6).blk t).view.emb (ix3 r l d)) R l d
    (by show win0_6.index t (0 : Fin 3) * 8 + 1 * r.val = R.val; omega)
    (by show win0_6.index t (1 : Fin 3) * 448 + 1 * l.val = l.val; omega)
    (by show win0_6.index t (2 : Fin 3) * 128 + 1 * d.val = d.val; omega)]

theorem read_blk7 (c : Dev nD) (t : Fin cfg0.N) (r : Fin 8) (l : Fin 512) (d : Fin 128) (R : Fin 512)
    (hR : R.val = win0_8.index t (0 : Fin 2) * 8 + r.val) : iblk m c 7 t (ix3 r l d) = V m c main_arg7 (ix3 R l d) := by
  obtain ⟨e0, e1, e2⟩ := idx_in7 t
  show V m c main_arg7 (((cfg0.win 7).blk t).view.emb (ix3 r l d)) = _
  rw [eq_ix3_of_val (((cfg0.win 7).blk t).view.emb (ix3 r l d)) R l d
    (by show win0_7.index t (0 : Fin 3) * 8 + 1 * r.val = R.val; omega)
    (by show win0_7.index t (1 : Fin 3) * 512 + 1 * l.val = l.val; omega)
    (by show win0_7.index t (2 : Fin 3) * 128 + 1 * d.val = d.val; omega)]

/-! ## A band of the blocks at row r is the band of the arrays at row 8 q + r -/

/-- Summand by summand (the block reads above), the middle-axis sums of the eight input blocks at row `r` are those of the
    eight arrays at row `R = 8 q + r`, band by band. -/
theorem band_blk (c : Dev nD) (t : Fin cfg0.N) (r : Fin 8) (R : Fin 512)
    (hR : R.val = win0_8.index t (0 : Fin 2) * 8 + r.val) (k : Fin 8) (d : Fin 128) :
    band (n := 8) (iblk m c 0 t) (iblk m c 1 t) (iblk m c 2 t) (iblk m c 3 t) (iblk m c 4 t) (iblk m c 5 t) (iblk m c 6 t) (iblk m c 7 t) r k d
      = band (n := 512) (V m c main_arg0) (V m c main_arg1) (V m c main_arg2) (V m c main_arg3) (V m c main_arg4) (V m c main_arg5) (V m c main_arg6) (V m c main_arg7) R k d := by
  match k with
  | ⟨0, _⟩ => exact midSum_congr (n := 8) (n' := 512) (L := 64) (c := 128) (iblk m c 0 t) (V m c main_arg0) r R d fun l => read_blk0 m c t r l d R hR
  | ⟨1, _⟩ => exact midSum_congr (n := 8) (n' := 512) (L := 128) (c := 128) (iblk m c 1 t) (V m c main_arg1) r R d fun l => read_blk1 m c t r l d R hR
  | ⟨2, _⟩ => exact midSum_congr (n := 8) (n' := 512) (L := 192) (c := 128) (iblk m c 2 t) (V m c main_arg2) r R d fun l => read_blk2 m c t r l d R hR
  | ⟨3, _⟩ => exact midSum_congr (n := 8) (n' := 512) (L := 256) (c := 128) (iblk m c 3 t) (V m c main_arg3) r R d fun l => read_blk3 m c t r l d R hR
  | ⟨4, _⟩ => exact midSum_congr (n := 8) (n' := 512) (L := 320) (c := 128) (iblk m c 4 t) (V m c main_arg4) r R d fun l => read_blk4 m c t r l d R hR
  | ⟨5, _⟩ => exact midSum_congr (n := 8) (n' := 512) (L := 384) (c := 128) (iblk m c 5 t) (V m c main_arg5) r R d fun l => read_blk5 m c t r l d R hR
  | ⟨6, _⟩ => exact midSum_congr (n := 8) (n' := 512) (L := 448) (c := 128) (iblk m c 6 t) (V m c main_arg6) r R d fun l => read_blk6 m c t r l d R hR
  | ⟨7, _⟩ => exact midSum_congr (n := 8) (n' := 512) (L := 512) (c := 128) (iblk m c 7 t) (V m c main_arg7) r R d fun l => read_blk7 m c t r l d R hR

/-! ## What a point writes back -/

/-- What point `t` writes back is block `t` of the eight bands side by side of the argument arrays. -/
theorem flushed_eq (c : Dev nD) (t : Fin cfg0.N) :
    (dats m 0 c).flushed 8 t = ((cfg0.win 8).blk t).view.read (Elt Ideal)
      (catSums (n := 512) (V m c main_arg0) (V m c main_arg1) (V m c main_arg2) (V m c main_arg3) (V m c main_arg4) (V m c main_arg5) (V m c main_arg6) (V m c main_arg7)) := by
  rw [Value.flushed8]
  obtain ⟨f0, f1⟩ := idx_out t
  funext j
  obtain ⟨r, jj, rfl⟩ : ∃ (r : Fin 8) (jj : Fin 1024), j = ix2 r jj := ⟨j 0, j 1, eq_ix2 j⟩
  have hr : r.val < 8 := r.isLt
  have hjj : jj.val < 1024 := jj.isLt
  obtain ⟨K, hK⟩ : ∃ K : Fin 8, K.val = jj.val / 128 := ⟨⟨jj.val / 128, by omega⟩, rfl⟩
  obtain ⟨D, hD⟩ : ∃ D : Fin 128, D.val = jj.val % 128 := ⟨⟨jj.val % 128, by omega⟩, rfl⟩
  obtain ⟨R, hR⟩ : ∃ R : Fin 512, R.val = win0_8.index t (0 : Fin 2) * 8 + r.val := ⟨⟨win0_8.index t (0 : Fin 2) * 8 + r.val, by omega⟩, rfl⟩
  show out0_8 (iblk m c 0 t) (iblk m c 1 t) (iblk m c 2 t) (iblk m c 3 t) (iblk m c 4 t) (iblk m c 5 t) (iblk m c 6 t) (iblk m c 7 t) (ix2 r jj)
    = catSums (n := 512) (V m c main_arg0) (V m c main_arg1) (V m c main_arg2) (V m c main_arg3) (V m c main_arg4) (V m c main_arg5) (V m c main_arg6) (V m c main_arg7) (((cfg0.win 8).blk t).view.emb (ix2 r jj))
  refine (congrFun (BlockValue.block_eq (iblk m c 0 t) (iblk m c 1 t) (iblk m c 2 t) (iblk m c 3 t) (iblk m c 4 t) (iblk m c 5 t) (iblk m c 6 t) (iblk m c 7 t)) (ix2 r jj)).trans ?_
  refine (catSums_eq_band (n := 8) (iblk m c 0 t) (iblk m c 1 t) (iblk m c 2 t) (iblk m c 3 t) (iblk m c 4 t) (iblk m c 5 t) (iblk m c 6 t) (iblk m c 7 t) (ix2 r jj) r K D rfl (by show jj.val = 128 * K.val + D.val; omega)).trans ?_
  refine (band_blk m c t r R hR K D).trans ?_
  refine (catSums_eq_band (n := 512) (V m c main_arg0) (V m c main_arg1) (V m c main_arg2) (V m c main_arg3) (V m c main_arg4) (V m c main_arg5) (V m c main_arg6) (V m c main_arg7) (((cfg0.win 8).blk t).view.emb (ix2 r jj)) R K D ?_ ?_).symm
  · show win0_8.index t (0 : Fin 2) * 8 + 1 * r.val = R.val; omega
  · show win0_8.index t (1 : Fin 2) * 1024 + 1 * jj.val = 128 * K.val + D.val; omega

/-! ## The cover, and the whole array -/

/-- An index of the result is in point `t`'s block iff each coordinate is in the block's range on its axis. -/
theorem mem_blk (t : Fin cfg0.N) (i : S512x1024.Idx) :
    i ∈ ((cfg0.win 8).blk t).view.set ↔ ∀ a : Fin 2, win0_8.index t a * S8x1024.size a ≤ (i a).val ∧ (i a).val < win0_8.index t a * S8x1024.size a + S8x1024.size a := by
  show i ∈ ((View.whole main_v0).slice (win0_8.rect t)).set ↔ _
  rw [View.set_slice_whole, Rect.mem_set_unit]
  exact Iff.rfl

/-- Every index of the result lies in some point's block: row `i` in the block of index `i / 8`. -/
theorem cover (i : S512x1024.Idx) : ∃ t : Fin cfg0.N, (cfg0.win 8).flush t = true ∧ i ∈ ((cfg0.win 8).blk t).view.set := by
  have hi0 : (i 0).val < 512 := (i 0).isLt
  have hi1 : (i 1).val < 1024 := (i 1).isLt
  obtain ⟨t, ht⟩ := idx_onto ⟨(i 0).val / 8, by omega⟩
  have q0 : win0_8.index t (0 : Fin 2) = (i 0).val / 8 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 8 ≤ (i 0).val ∧ (i 0).val < win0_8.index t (0 : Fin 2) * 8 + 8; omega
  | ⟨1, _⟩ => show win0_8.index t (1 : Fin 2) * 1024 ≤ (i 1).val ∧ (i 1).val < win0_8.index t (1 : Fin 2) * 1024 + 1024; omega

/-- The result array after the run: the eight bands of middle-axis sums of the argument arrays, side by side. -/
theorem final (c : Dev nD) : (dats m 0 c).arrAt 8 cfg0.N
    = catSums (n := 512) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 (catSums (n := 512) (V m c main_arg0) (V m c main_arg1) (V m c main_arg2) (V m c main_arg3) (V m c main_arg4) (V m c main_arg5) (V m c main_arg6) (V m c main_arg7))
    (fun t _ => flushed_eq m c t) cover

/-- The kernel's run, read: the result at that function of the arguments, the arguments unchanged. -/
theorem run : θ_run defs (onTc (τ := τ) (main (F := Ideal))) ⟨m, fun _ => 0, ρ⟩ fun r => ∀ c : Dev nD,
      r.2.mem ((c : Thread nD τ).loc main_v0) = catSums (n := 512) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.ArrayValue

end
-- ==== Proof.lean ====
/-
  The kernel and its reference compute one function, on the extended reals.

  The eight inputs x₀ … x₇ have shapes [512, 64(k+1), 128]. The kernel walks the 512 rows in 64 blocks of eight: at each
  grid point it loads the eight row blocks whole, sums each over its middle axis lane by lane, and stores the [8, 128] sum of
  block `k` into columns 128 k … 128 k + 127 of an [8, 1024] output block. The reference sums each whole array over its middle
  axis on the host and concatenates the eight [512, 128] results along the columns. Both therefore hold, at row `b` and column
  `128 k + d`, the finite sum `∑ l, x_k (b, l, d)`: the lane sum and the host's sum over one axis are both that sum (the
  accumulator and the host's initial value are the zero word, which adds nothing), a block's entry (r, l, d) is the array's
  entry (8 q + r, l, d), and the column decides the band on both sides. Only the meaning of the two sums is used, no algebra
  of infinities, so the finiteness precondition is never opened.

  The three frames are the generated ones (the reference's is its generated run with the result dropped); the idealized
  kernel is the kernel's own text read on the extended reals, no operation rewritten, so the idealization claim is trivial;
  and the value claim puts the kernel's run (its result array as one function of the arguments) beside the reference's run
  read index by index.
-/
import proofs.«102761_j48773648613702_2_alg».proof.Defs
import proofs.«102761_j48773648613702_2_alg».proof.Proof.Gen.Kernel
import proofs.«102761_j48773648613702_2_alg».proof.Proof.Gen.Kernel.Skeleton
import proofs.«102761_j48773648613702_2_alg».proof.Proof.Gen.Kernel.Launch
import proofs.«102761_j48773648613702_2_alg».proof.Proof.Gen.Kernel.Points
import proofs.«102761_j48773648613702_2_alg».proof.Proof.Gen.Kernel.Frame
import proofs.«102761_j48773648613702_2_alg».proof.Proof.Gen.KernelIdeal
import proofs.«102761_j48773648613702_2_alg».proof.Proof.Gen.KernelIdeal.Skeleton
import proofs.«102761_j48773648613702_2_alg».proof.Proof.Gen.KernelIdeal.Launch
import proofs.«102761_j48773648613702_2_alg».proof.Proof.Gen.KernelIdeal.Points
import proofs.«102761_j48773648613702_2_alg».proof.Proof.Gen.KernelIdeal.Frame
import proofs.«102761_j48773648613702_2_alg».proof.Proof.Gen.ReferenceIdeal
import proofs.«102761_j48773648613702_2_alg».proof.Proof.Gen.Pre_finite_inputs
import proofs.«102761_j48773648613702_2_alg».proof.Proof.Gen.KernelIdeal.Value
import proofs.«102761_j48773648613702_2_alg».proof.Proof.Gen.ReferenceIdeal.Run
import proofs.«102761_j48773648613702_2_alg».proof.Proof.Gen.ReferenceIdeal.Read
import proofs.«102761_j48773648613702_2_alg».proof.Proof.RefRead
import proofs.«102761_j48773648613702_2_alg».proof.Proof.KernelArray
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

/-- From memories agreeing on the eight arguments, the kernel's result array is the eight bands of middle-axis sums side by
    side of the arguments, and so is the reference's concatenation of its eight host sums. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact (Cert.ReferenceIdeal.Read.val_main_v8_eq _ _ _ _ _ _ _ _).trans
    (Cert.ReferenceIdeal.RefValue.ref_eq _ _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
